-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S128x4096 : Shape := ⟨2, ![128, 4096]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S128x4096 : S_.BroadcastsInDim S128x4096 (![] : Fin 0 → Fin S128x4096.rank)
  reducesTo_S128x4096_S_d0_1 : S128x4096.ReducesTo [0, 1] S_

variable [Facts]

def fn {F : FTy → Type} [FloatOps F] (main_arg0 : FVec F S16384x128 .f32) (main_arg1 : FVec F S128x4096 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S128x4096 .f32 := Host.absf main_arg1
  let main_cst_0 : FVec F S_ .f32 := constant S_ .f32 0x7F800000#32
  let main_v5 : FVec F S128x4096 .f32 := broadcastInDim S128x4096 ![] bcast_S_S128x4096 main_cst_0
  let main_v6 : IVec S128x4096 1 := cmpf .olt main_v4 main_v5
  let main_c_1 : IVec S_ 1 := constantI S_ 1 1#1
  let main_v7 : IVec S_ 1 := (fun x v => Host.reduce IntOp.andi x v reducesTo_S128x4096_S_d0_1 h_S_) main_v6 main_c_1
  let main_v8 : IVec S_ 1 := andi main_v3 main_v7
  main_v8
-- ==== Kernel.lean ====
abbrev S16384x128 : Shape := ⟨2, ![16384, 128]⟩
abbrev S128x4096 : Shape := ⟨2, ![128, 4096]⟩
abbrev S16384x4096 : Shape := ⟨2, ![16384, 4096]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x128, .f32⟩
  | .hbm, ⟨1, _⟩ => ⟨S128x4096, .f32⟩
  | .hbm, ⟨2, _⟩ => ⟨S16384x4096, .f32⟩
  | .local _ .vmem, ⟨0, _⟩ => ⟨S1024x128, .f32⟩
  | .local _ .vmem, ⟨1, _⟩ => ⟨S1024x128, .f32⟩
  | .local _ .vmem, ⟨2, _⟩ => ⟨S128x1024, .f32⟩
  | .local _ .vmem, ⟨3, _⟩ => ⟨S128x1024, .f32⟩
  | .local _ .vmem, ⟨4, _⟩ => ⟨S1024x1024, .f32⟩
  | .local _ .vmem, ⟨5, _⟩ => ⟨S1024x1024, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x4096.size a
  hwx0_1 : ∀ i : grid0.Coords, EltTy.bits .f32 = 32 ∨ (Rect.block (s := S128x4096) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x128 : Shape := ⟨2, ![16384, 128]⟩
abbrev S128x4096 : Shape := ⟨2, ![128, 4096]⟩
abbrev S16384x4096 : Shape := ⟨2, ![16384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S128x4096, .f32⟩
  | .hbm, ⟨2, _⟩ => ⟨S16384x4096, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x128_S128x4096_S16384x4096_1_0_0_1_n_n_wf : DotDims.WF S16384x128 S128x4096 S16384x4096 [1] [0] [0] [1] [] []

variable [Facts₀]

def dot_S16384x128_S128x4096_S16384x4096_1_0_0_1_n_n : DotDims S16384x128 S128x4096 S16384x4096 where
  lhsContracting := [1]
  rhsContracting := [0]
  lhsNonContracting := [0]
  rhsNonContracting := [1]
  lhsBatch := []
  rhsBatch := []
  wf := dot_S16384x128_S128x4096_S16384x4096_1_0_0_1_n_n_wf

class Facts : Prop extends Facts₀ where

variable [Facts]
-- ==== Proof.Product.lean ====
/-
  The product of a 16384 × 128 array with a 128 × 4096 array over the extended reals: entry (r, c) is the sum over
  the 128 values k of a[r, k] · b[k, c]. Addition of extended reals is commutative and associative, so this finite
  sum needs no order; nothing here asks the entries to be finite.
-/
import Idealize.ShloMosaic.PureOps.Ideal
import Idealize.ShloMosaic.Lib.ValueIdx

noncomputable section

namespace Cert.Product

open Idealize.ShloMosaic Idealize.ShloMosaic.ValueIdx

/-- Entry (r, c) of the product a · b: the sum over k of a[r, k] · b[k, c]. -/
def prod (a : FVec Ideal ⟨2, ![16384, 128]⟩ .f32) (b : FVec Ideal ⟨2, ![128, 4096]⟩ .f32) :
    FVec Ideal ⟨2, ![16384, 4096]⟩ .f32 :=
  fun i => ∑ k : Fin 128, a (ix2 (i 0) k) * b (ix2 k (i 1))

/-- The product read at an entry. -/
theorem prod_apply (a : FVec Ideal ⟨2, ![16384, 128]⟩ .f32) (b : FVec Ideal ⟨2, ![128, 4096]⟩ .f32)
    (i : (⟨2, ![16384, 4096]⟩ : Shape).Idx) :
    prod a b i = ∑ k : Fin 128, a (ix2 (i 0) k) * b (ix2 k (i 1)) := rfl

end Cert.Product

end
-- ==== Proof.TileProduct.lean ====
/-
  One tile of the product. The kernel body multiplies a 1024 × 128 block x by a 128 × 1024 block w into a zero
  accumulator; narrowing a float to a shorter format is the identity on the extended reals, so entry (p, q) of what
  the body stores is the sum over the 128 values k of x[p, k] · w[k, q]. If x is a band of rows of a and w a band of
  columns of b, that is an entry of the whole product a · b.
-/
import proofs.«119813_j54254026883701_1_alg».proof.Proof.Gen.KernelIdeal.Skeleton
import proofs.«119813_j54254026883701_1_alg».proof.Proof.Product
import Idealize.ShloMosaic.Lib.ValueIdx
import Idealize.ShloMosaic.PureOps.Ideal.Laws

noncomputable section

namespace Cert.KernelIdeal.Tile

open Cert.KernelIdeal Cert.KernelIdeal.Gen Idealize.ShloMosaic Idealize.ShloMosaic.ValueIdx

/-! ## The operand indices of the tile's contraction, coordinate by coordinate -/

/-- The left operand is read in the output's row. -/
theorem lhs_row (j : S1024x1024.Idx) (κ : dot_S1024x128_S128x1024_S1024x1024_1_0_0_1_n_n.contr.Idx) :
    (dot_S1024x128_S128x1024_S1024x1024_1_0_0_1_n_n.lhsIdx j κ 0).val = (j 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl

/-- and at the contraction index; -/
theorem lhs_col (j : S1024x1024.Idx) (κ : dot_S1024x128_S128x1024_S1024x1024_1_0_0_1_n_n.contr.Idx) :
    (dot_S1024x128_S128x1024_S1024x1024_1_0_0_1_n_n.lhsIdx j κ 1).val = (κ ⟨0, by decide⟩).val :=
  dot_S1024x128_S128x1024_S1024x1024_1_0_0_1_n_n.lhsIdx_val_of_single rfl j κ

/-- the right operand is read at the contraction index -/
theorem rhs_row (j : S1024x1024.Idx) (κ : dot_S1024x128_S128x1024_S1024x1024_1_0_0_1_n_n.contr.Idx) :
    (dot_S1024x128_S128x1024_S1024x1024_1_0_0_1_n_n.rhsIdx j κ 0).val = (κ ⟨0, by decide⟩).val :=
  dot_S1024x128_S128x1024_S1024x1024_1_0_0_1_n_n.rhsIdx_val_of_single rfl j κ

/-- and in the output's column. -/
theorem rhs_col (j : S1024x1024.Idx) (κ : dot_S1024x128_S128x1024_S1024x1024_1_0_0_1_n_n.contr.Idx) :
    (dot_S1024x128_S128x1024_S1024x1024_1_0_0_1_n_n.rhsIdx j κ 1).val = (j 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-! ## What the body stores, entry by entry -/

/-- Entry (p, q) of the stored tile is the sum over k of x[p, k] · w[k, q]: the accumulator is zero and the two
    narrowings change nothing. -/
theorem pay_apply (x : FVec Ideal S1024x128 .f32) (w : FVec Ideal S128x1024 .f32) (p q : Fin 1024) :
    k0_pay1 (F := Ideal) x w (ix2 p q) = ∑ k : Fin 128, x (ix2 p k) * w (ix2 k q) := by
  unfold k0_pay1
  simp only [matmul]
  rw [Ideal.matmul_constant_zero_apply, ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q) ((contrEquiv1 dot_S1024x128_S128x1024_S1024x1024_1_0_0_1_n_n 128 rfl rfl).symm k) = ix2 p k := funext fun a => Fin.ext (by
    match a with
    | ⟨0, _⟩ => exact lhs_row _ _
    | ⟨1, _⟩ => exact (lhs_col _ _).trans hk)
  have er : dot_S1024x128_S128x1024_S1024x1024_1_0_0_1_n_n.rhsIdx (ix2 p q) ((contrEquiv1 dot_S1024x128_S128x1024_S1024x1024_1_0_0_1_n_n 128 rfl rfl).symm k) = ix2 k q := funext fun a => Fin.ext (by
    match a with
    | ⟨0, _⟩ => exact (rhs_row _ _).trans hk
    | ⟨1, _⟩ => exact rhs_col _ _)
  rw [el, er]
  rfl

/-- A TILE OF THE PRODUCT: when row p of the block x is row (i 0) of a, and column q of the block w is column (i 1)
    of b, entry (p, q) of the stored tile is entry i of a · b. -/
theorem tile_eq (a : FVec Ideal S16384x128 .f32) (b : FVec Ideal S128x4096 .f32)
    (x : FVec Ideal S1024x128 .f32) (w : FVec Ideal S128x1024 .f32) (i : S16384x4096.Idx) (p q : Fin 1024)
    (hx : ∀ k : Fin 128, x (ix2 p k) = a (ix2 (i 0) k)) (hw : ∀ k : Fin 128, w (ix2 k q) = b (ix2 k (i 1))) :
    k0_pay1 (F := Ideal) x w (ix2 p q) = Product.prod a b i :=
  (pay_apply x w p q).trans (Finset.sum_congr rfl fun k _ => by rw [hx k, hw k])

end Cert.KernelIdeal.Tile

end
-- ==== Proof.Tiles.lean ====
/-
  From tiles to the array. The grid has 16 × 4 points; point (s, u) reads rows [1024 s, 1024 s + 1024) of a — all
  128 columns —, columns [1024 u, 1024 u + 1024) of b — all 128 rows —, and writes back the 1024 × 1024 tile of the
  result at block (s, u). Each tile written back is the same tile of the whole product a · b, and the 64 tiles
  cover the 16384 × 4096 result: entry (r, c) lies in the tile of the point (r / 1024, c / 1024). So after the run
  the result array is a · b.
-/
import proofs.«119813_j54254026883701_1_alg».proof.Proof.Gen.KernelIdeal.Value
import proofs.«119813_j54254026883701_1_alg».proof.Proof.TileProduct
import proofs.«119813_j54254026883701_1_alg».proof.Proof.Product
import Idealize.ShloMosaic.Lib.Pipeline.Value
import Idealize.ShloMosaic.Lib.ValueIdx

noncomputable section

namespace Cert.KernelIdeal.Tiles

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices of the three windows at a grid point, decided over the 64 points: the rows of a move with the
    result's block row and its columns stay; the columns of b move with the result's block column and its rows stay. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = win0_2.index t (1 : Fin 2) :=
  (by decide +kernel : ∀ t : Fin grid0.N, _)

/-- Every block (s, u) of the result is some point's. -/
theorem block_onto : ∀ (s : Fin 16) (u : Fin 4), ∃ t : Fin cfg0.N, win0_2.index t = ![s.val, u.val] :=
  (by decide +kernel : ∀ (s : Fin 16) (u : Fin 4), ∃ t : Fin grid0.N, win0_2.index t = ![s.val, u.val])

/-- WHAT POINT t WRITES BACK is tile t of the product of the argument arrays. -/
theorem flushed_eq (c : Dev nD) (t : Fin cfg0.N) :
    (dats m 0 c).flushed 2 t
      = ((cfg0.win 2).blk t).view.read (Elt Ideal) (Product.prod (V m c main_arg0) (V m c main_arg1)) := by
  rw [Value.flushed2]
  unfold out0_2
  rw [View.canon_unit_zero zero_offsets]
  simp only [View.ld_unit_zero (S := S1024x128) zero_offsets, View.ld_unit_zero (S := S128x1024) zero_offsets]
  obtain ⟨e0, e1, e2, e3⟩ := block_indices t
  funext j
  obtain ⟨p, q, rfl⟩ : ∃ (p : Fin 1024) (q : Fin 1024), j = ix2 p q := ⟨j 0, j 1, eq_ix2 j⟩
  refine Tile.tile_eq (V m c main_arg0) (V m c main_arg1) (iblk m c 0 t) (iblk m c 1 t)
    (((cfg0.win 2).blk t).view.emb (ix2 p q)) p q (fun k => ?_) (fun k => ?_)
  · show V m c main_arg0 (((cfg0.win 0).blk t).view.emb (ix2 p k)) = V m c main_arg0 _
    refine congrArg (V m c main_arg0) (funext fun a => Fin.ext ?_)
    match a with
    | ⟨0, _⟩ =>
      show win0_0.index t (0 : Fin 2) * 1024 + 1 * p.val = win0_2.index t (0 : Fin 2) * 1024 + 1 * p.val
      omega
    | ⟨1, _⟩ =>
      show win0_0.index t (1 : Fin 2) * 128 + 1 * k.val = k.val
      omega
  · show V m c main_arg1 (((cfg0.win 1).blk t).view.emb (ix2 k q)) = V m c main_arg1 _
    refine congrArg (V m c main_arg1) (funext fun a => Fin.ext ?_)
    match a with
    | ⟨0, _⟩ =>
      show win0_1.index t (0 : Fin 2) * 128 + 1 * k.val = k.val
      omega
    | ⟨1, _⟩ =>
      show win0_1.index t (1 : Fin 2) * 1024 + 1 * q.val = win0_2.index t (1 : Fin 2) * 1024 + 1 * q.val
      omega

/-- An entry of the result lies in point t's tile iff each coordinate lies in the tile's range on its axis. -/
theorem mem_tile (t : Fin cfg0.N) (i : S16384x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v0).slice (win0_2.rect t)).set ↔ _
  rw [View.set_slice_whole, Rect.mem_set_unit]
  exact Iff.rfl

/-- THE TILES COVER THE RESULT: entry (r, c) lies in the tile of the point at block (r / 1024, c / 1024), and every
    point writes its tile back. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_tile]
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 1024 ≤ (i 1).val ∧ (i 1).val < win0_2.index t (1 : Fin 2) * 1024 + 1024
    omega

/-- THE RESULT ARRAY after the run is the product of the argument arrays. -/
theorem final (c : Dev nD) :
    (dats m 0 c).arrAt 2 cfg0.N
      = Product.prod (m ((c : Thread nD τ).loc main_arg0)) (m ((c : Thread nD τ).loc main_arg1)) :=
  (dats m 0 c).arrAt_eq_of_cover 2 (Product.prod (V m c main_arg0) (V m c main_arg1))
    (fun t _ => flushed_eq m c t) cover

/-- The kernel's run: every weakly fair execution terminates with the result array at the product of the argument
    arrays, and the arguments unchanged. -/
theorem run : θ_run defs (onTc (τ := τ) (main (F := Ideal))) ⟨m, fun _ => 0, ρ⟩ fun r => ∀ c : Dev nD,
      r.2.mem ((c : Thread nD τ).loc main_v0)
        = Product.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tiles

end
-- ==== Proof.RefProduct.lean ====
/-
  The reference is the product: jnp's contraction of a's second axis with b's first, read at an entry (r, c), is
  the sum over k of a[r, k] · b[k, c] on the extended reals.
-/
import proofs.«119813_j54254026883701_1_alg».proof.Proof.Gen.ReferenceIdeal.Read
import proofs.«119813_j54254026883701_1_alg».proof.Proof.Product
import Idealize.ShloMosaic.Lib.ValueIdx

noncomputable section

namespace Cert.ReferenceIdeal.RefValue

open Cert.ReferenceIdeal Cert.ReferenceIdeal.Gen Idealize.ShloMosaic Idealize.ShloMosaic.ValueIdx

/-- The left operand's index at an output entry and a contraction value, by coordinates. -/
theorem lidx_eq (i : S16384x4096.Idx) (k : Fin 128) : Read.lidx_main_v0 i k = ix2 (i 0) k :=
  funext fun a => Fin.ext (by match a with | ⟨0, _⟩ => rfl | ⟨1, _⟩ => rfl)

/-- The right operand's. -/
theorem ridx_eq (i : S16384x4096.Idx) (k : Fin 128) : Read.ridx_main_v0 i k = ix2 k (i 1) :=
  funext fun a => Fin.ext (by match a with | ⟨0, _⟩ => rfl | ⟨1, _⟩ => rfl)

/-- The reference's result, as a function of its two arguments, is their product. -/
theorem result_eq (a : FVec Ideal S16384x128 .f32) (b : FVec Ideal S128x4096 .f32) :
    Host.dotGeneral (F := Ideal) dot_S16384x128_S128x4096_S16384x4096_1_0_0_1_n_n none a b = Product.prod a b := by
  funext i
  show Read.val_main_v0 (F := Ideal) a b i = _
  rw [Read.val_main_v0_apply, Product.prod_apply]
  exact Finset.sum_congr rfl fun k _ => congrArg₂ (· * ·) (congrArg a (lidx_eq i k)) (congrArg b (ridx_eq i k))

end Cert.ReferenceIdeal.RefValue

end
-- ==== Proof.lean ====
/-
  The kernel and its reference compute one matrix product. The kernel tiles the 16384 × 4096 result into 16 × 4
  tiles of 1024 × 1024 and computes each as one product of a 1024 × 128 band of rows of x with a 128 × 1024 band of
  columns of the interpolator, both narrowed to bf16 first; the reference contracts the whole arrays at once. On the
  extended reals narrowing is the identity and a tile's entry (p, q) is the sum over k of x[p, k] · w[k, q], which
  is entry (r, c) of the whole product for the row r and column c the tile places it at (Proof/TileProduct.lean);
  the tiles cover the result (Proof/Tiles.lean); the reference's contraction is the same sum (Proof/RefProduct.lean).
  Only commutativity and associativity of the sum are used, so the inputs' finiteness is never opened. No operation
  of the kernel is rewritten for the reading on the extended reals, so the preservation conjunct is `True`.
-/
import proofs.«119813_j54254026883701_1_alg».proof.Defs
import proofs.«119813_j54254026883701_1_alg».proof.Proof.Gen.Kernel
import proofs.«119813_j54254026883701_1_alg».proof.Proof.Gen.Kernel.Skeleton
import proofs.«119813_j54254026883701_1_alg».proof.Proof.Gen.Kernel.Launch
import proofs.«119813_j54254026883701_1_alg».proof.Proof.Gen.Kernel.Points
import proofs.«119813_j54254026883701_1_alg».proof.Proof.Gen.Kernel.Frame
import proofs.«119813_j54254026883701_1_alg».proof.Proof.Gen.KernelIdeal
import proofs.«119813_j54254026883701_1_alg».proof.Proof.Gen.KernelIdeal.Skeleton
import proofs.«119813_j54254026883701_1_alg».proof.Proof.Gen.KernelIdeal.Launch
import proofs.«119813_j54254026883701_1_alg».proof.Proof.Gen.KernelIdeal.Points
import proofs.«119813_j54254026883701_1_alg».proof.Proof.Gen.KernelIdeal.Frame
import proofs.«119813_j54254026883701_1_alg».proof.Proof.Gen.ReferenceIdeal
import proofs.«119813_j54254026883701_1_alg».proof.Proof.Gen.Pre_finite_inputs
import proofs.«119813_j54254026883701_1_alg».proof.Proof.Gen.KernelIdeal.Value
import proofs.«119813_j54254026883701_1_alg».proof.Proof.Gen.ReferenceIdeal.Run
import proofs.«119813_j54254026883701_1_alg».proof.Proof.Gen.ReferenceIdeal.Read
import proofs.«119813_j54254026883701_1_alg».proof.Proof.Tiles
import proofs.«119813_j54254026883701_1_alg».proof.Proof.RefProduct
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run, with the result's value dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories agreeing on x and the interpolator, the kernel's result array ends at their product (the tiles,
    assembled) and the reference's at its contraction of them, which is that product. -/
theorem algebraic : Cert.algebraic_KernelIdeal_ReferenceIdeal := by
  intro m ρ m' ρ' _ hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
